-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x256 .f32) (main_arg5 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S100000x256 : Shape := ⟨2, ![100000, 256]⟩
abbrev S5000x256 : Shape := ⟨2, ![5000, 256]⟩
abbrev S700000x256 : Shape := ⟨2, ![700000, 256]⟩
abbrev S1x256 : Shape := ⟨2, ![1, 256]⟩

abbrev nBuf : Space → Nat
  | .hbm => 94
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000, .i32⟩
  | .hbm, ⟨11, _⟩ => ⟨S700000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x256, .f32⟩
  | .hbm, ⟨70, _⟩ => ⟨S_, .i32⟩
  | .hbm, ⟨71, _⟩ => ⟨S700000, .i32⟩
  | .hbm, ⟨72, _⟩ => ⟨S700000, .i1⟩
  | .hbm, ⟨73, _⟩ => ⟨S_, .i32⟩
  | .hbm, ⟨74, _⟩ => ⟨S700000, .i32⟩
  | .hbm, ⟨75, _⟩ => ⟨S700000, .i32⟩
  | .hbm, ⟨76, _⟩ => ⟨S700000, .i32⟩
  | .hbm, ⟨77, _⟩ => ⟨S700000x1, .i32⟩
  | .hbm, ⟨78, _⟩ => ⟨S700000x256, .f32⟩
  | .hbm, ⟨79, _⟩ => ⟨S700000x1, .f32⟩
  | .hbm, ⟨80, _⟩ => ⟨S700000x256, .f32⟩
  | .hbm, ⟨81, _⟩ => ⟨S700000x256, .f32⟩
  | .hbm, ⟨82, _⟩ => ⟨S_, .f32⟩
  | .hbm, ⟨83, _⟩ => ⟨S100000x256, .f32⟩
  | .hbm, ⟨84, _⟩ => ⟨S700000x1, .i32⟩
  | .hbm, ⟨85, _⟩ => ⟨S100000x256, .f32⟩
  | .hbm, ⟨86, _⟩ => ⟨S1x256, .f32⟩
  | .hbm, ⟨87, _⟩ => ⟨S100000x256, .f32⟩
  | .hbm, ⟨88, _⟩ => ⟨S100000x256, .f32⟩
  | .hbm, ⟨89, _⟩ => ⟨S_, .f32⟩
  | .hbm, ⟨90, _⟩ => ⟨S100000x256, .f32⟩
  | .hbm, ⟨91, _⟩ => ⟨S100000x256, .f32⟩
  | .hbm, ⟨92, _⟩ => ⟨S1x256, .f32⟩
  | .hbm, ⟨93, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S1x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S5000x256_S5000x256 : S5000x256.ShapeCasts S5000x256
  reduces_S5000x256_S256 : S5000x256.Reduces [0] S256
  shapeCasts_S256_S1x256 : S256.ShapeCasts S1x256
  shapeCasts_S1x256_S256 : S1x256.ShapeCasts S256
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x256_S5000x256_1_0_0_1_n_n_wf : DotDims.WF S5000x128 S128x256 S5000x256 [1] [0] [0] [1] [] []
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x256.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x256 : Shape := ⟨2, ![100000, 256]⟩
abbrev S700000x256 : Shape := ⟨2, ![700000, 256]⟩
abbrev S1x256 : Shape := ⟨2, ![1, 256]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x256, .f32⟩
  | 5 => ⟨S256, .f32⟩
  | 6 => ⟨S1x600000, .i32⟩
  | 7 => ⟨S600000, .i32⟩
  | 8 => ⟨S1x600000, .i32⟩
  | 9 => ⟨S600000, .i32⟩
  | 10 => ⟨S100000x128, .f32⟩
  | 11 => ⟨S100000, .i32⟩
  | 12 => ⟨S700000, .i32⟩
  | 13 => ⟨S700000, .i32⟩
  | 14 => ⟨S_, .f32⟩
  | 15 => ⟨S700000, .f32⟩
  | 16 => ⟨S_, .f32⟩
  | 17 => ⟨S100000, .f32⟩
  | 18 => ⟨S700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S700000, .i32⟩
  | 30 => ⟨S700000, .i1⟩
  | 31 => ⟨S_, .i32⟩
  | 32 => ⟨S700000, .i32⟩
  | 33 => ⟨S700000, .i32⟩
  | 34 => ⟨S700000, .i32⟩
  | 35 => ⟨S700000x1, .i32⟩
  | 36 => ⟨S700000, .f32⟩
  | 37 => ⟨S_, .i32⟩
  | 38 => ⟨S700000, .i32⟩
  | 39 => ⟨S700000, .i1⟩
  | 40 => ⟨S_, .i32⟩
  | 41 => ⟨S700000, .i32⟩
  | 42 => ⟨S700000, .i32⟩
  | 43 => ⟨S700000, .i32⟩
  | 44 => ⟨S700000x1, .i32⟩
  | 45 => ⟨S700000, .f32⟩
  | 46 => ⟨S700000, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000x128, .f32⟩
  | 56 => ⟨S700000x1, .f32⟩
  | 57 => ⟨S700000x128, .f32⟩
  | 58 => ⟨S700000x128, .f32⟩
  | 59 => ⟨S_, .f32⟩
  | 60 => ⟨S100000x128, .f32⟩
  | 61 => ⟨S700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x256, .f32⟩
  | 70 => ⟨S100000, .i32⟩
  | 71 => ⟨S700000, .i32⟩
  | 72 => ⟨S700000, .i32⟩
  | 73 => ⟨S_, .f32⟩
  | 74 => ⟨S700000, .f32⟩
  | 75 => ⟨S_, .f32⟩
  | 76 => ⟨S100000, .f32⟩
  | 77 => ⟨S700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S700000, .i32⟩
  | 89 => ⟨S700000, .i1⟩
  | 90 => ⟨S_, .i32⟩
  | 91 => ⟨S700000, .i32⟩
  | 92 => ⟨S700000, .i32⟩
  | 93 => ⟨S700000, .i32⟩
  | 94 => ⟨S700000x1, .i32⟩
  | 95 => ⟨S700000, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000, .f32⟩
  | 105 => ⟨S700000, .f32⟩
  | 106 => ⟨S_, .i32⟩
  | 107 => ⟨S700000, .i32⟩
  | 108 => ⟨S700000, .i1⟩
  | 109 => ⟨S_, .i32⟩
  | 110 => ⟨S700000, .i32⟩
  | 111 => ⟨S700000, .i32⟩
  | 112 => ⟨S700000, .i32⟩
  | 113 => ⟨S700000x1, .i32⟩
  | 114 => ⟨S700000x256, .f32⟩
  | 115 => ⟨S700000x1, .f32⟩
  | 116 => ⟨S700000x256, .f32⟩
  | 117 => ⟨S700000x256, .f32⟩
  | 118 => ⟨S_, .f32⟩
  | 119 => ⟨S100000x256, .f32⟩
  | 120 => ⟨S700000x1, .i32⟩
  | 121 => ⟨S100000x256, .f32⟩
  | 122 => ⟨S1x256, .f32⟩
  | 123 => ⟨S100000x256, .f32⟩
  | 124 => ⟨S100000x256, .f32⟩
  | 125 => ⟨S_, .f32⟩
  | 126 => ⟨S100000x256, .f32⟩
  | 127 => ⟨S100000x256, .f32⟩
  | _ => ⟨S100000x128, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_cst_20 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x256_S100000x256_1_0_0_1_n_n_wf : DotDims.WF S100000x128 S128x256 S100000x256 [1] [0] [0] [1] [] []
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf

class Facts : Prop extends Facts₀ where

variable [Facts]
-- ==== Proof.RunValue.lean ====
/-
  The idealized kernel's run with its result kept. @main is eleven segments — host stretches and three kernel
  regions — and the launch over them ends with every unscoped buffer at the last boundary's contents (the fold
  `W11` of the boundaries: a stretch's operations applied, a region's arrays at what its write-backs leave). The
  frame claim reads only the six argument buffers back; here the result buffer is read as well, so that the
  result of every weakly fair execution is `W11` at `main_v67`, a pure term of the launch memory.
-/
import proofs.«167610_j85899345920324_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last
    boundary's contents and the six argument arrays as launched. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunValue

end
-- ==== Proof.Glue.lean ====
/-
  The host-side stretches that the kernel's program and the reference share, as pure functions of their operands.

  A graph convolution layer over N = 100000 nodes and 600000 listed edges, with a self loop added at every node
  (700000 edges in all): edge k goes from node `src k` to node `dst k`; a node's degree d is the number of edges
  that end at it; an edge's weight is d(src)^(-1/2) * d(dst)^(-1/2) (zero where a degree is not positive); and the
  layer maps projected features p to  relu( (sum over the edges ending at a node of weight * p[source]) + bias ).
  Both programs compute these by the same host operations, which are named here once and never opened: the
  equivalence only uses that both sides apply the same functions to equal operands.
-/
import proofs.«167610_j85899345920324_1_alg».proof.Proof.Gen.KernelIdeal

noncomputable section

namespace Cert.KernelIdeal.Glue

open Cert.KernelIdeal Cert.KernelIdeal.Gen Idealize.ShloMosaic

variable {F : FTy → Type} [FloatOps F]

/-- The source node of each of the 700000 edges: the listed sources (row 0 of the edge list), then every node once. -/
def srcIdx (e : IVec S2x600000 32) : IVec S700000 32 :=
  concatenate S700000 0 [⟨S600000, shapeCast S600000 (extractStridedSlice S1x600000 ![0, 0] e slices_S2x600000_S1x600000_0_0) shapeCasts_S1x600000_S600000⟩, ⟨S100000, iotaInDim S100000 32 0⟩] concatenates_S600000_S100000_S700000_d0

/-- The destination node of each edge: the listed destinations (row 1 of the edge list), then every node once. -/
def dstIdx (e : IVec S2x600000 32) : IVec S700000 32 :=
  concatenate S700000 0 [⟨S600000, shapeCast S600000 (extractStridedSlice S1x600000 ![1, 0] e slices_S2x600000_S1x600000_1_0) shapeCasts_S1x600000_S600000⟩, ⟨S100000, iotaInDim S100000 32 0⟩] concatenates_S600000_S100000_S700000_d0

/-- A signed node index with the node count added where it is negative (indexing from the end). -/
def wrapIdx (v : IVec S700000 32) : IVec S700000 32 :=
  select (cmpi .slt v (broadcastInDim S700000 ![] bcast_S_S700000 (constantI S_ 32 0#32)))
    (addi v (broadcastInDim S700000 ![] bcast_S_S700000 (constantI S_ 32 100000#32))) v

/-- The degree of every node: ones added up at the edges' destinations. -/
def degree (dst : IVec S700000 32) : FVec F S100000 .f32 :=
  Host.scatterAdd scatter_S100000_S700000x1_S700000_n_0_0_1
    (broadcastInDim S100000 ![] bcast_S_S100000 (constant S_ .f32 0x00000000#32))
    (broadcastInDim S700000x1 ![0] bcast_S700000_S700000x1_0 dst)
    (broadcastInDim S700000 ![] bcast_S_S700000 (constant S_ .f32 0x3F800000#32))

/-- degree^(-1/2) where the degree is positive, zero elsewhere. -/
def invSqrtDeg (dst : IVec S700000 32) : FVec F S100000 .f32 :=
  select (cmpf .ogt (degree (F := F) dst) (broadcastInDim S100000 ![] bcast_S_S100000 (constant S_ .f32 0x00000000#32)))
    (Host.rsqrt (degree dst))
    (broadcastInDim S100000 ![] bcast_S_S100000 (constant S_ .f32 0x00000000#32))

/-- The weight of every edge: the product of its two end nodes' degree^(-1/2). -/
def edgeNorm (src dst : IVec S700000 32) : FVec F S700000 .f32 :=
  mulf (Host.gather gather_S100000_S700000x1_S700000_n_0_n_n_0_1_1 (invSqrtDeg dst)
          (broadcastInDim S700000x1 ![0] bcast_S700000_S700000x1_0 (wrapIdx src)))
       (Host.gather gather_S100000_S700000x1_S700000_n_0_n_n_0_1_1 (invSqrtDeg dst)
          (broadcastInDim S700000x1 ![0] bcast_S700000_S700000x1_0 (wrapIdx dst)))

/-- The first layer on projected features `p` [N, 128]: gather the sources' rows, weight them, add them up at the
    destinations, add the bias to every row, and clamp below at zero. -/
def layer128 (p : FVec F S100000x128 .f32) (src dst : IVec S700000 32) (nrm : FVec F S700000 .f32) (b : FVec F S128 .f32) :
    FVec F S100000x128 .f32 :=
  maximumf
    (addf
      (Host.scatterAdd scatter_S100000x128_S700000x1_S700000x128_1_0_0_1
        (broadcastInDim S100000x128 ![] bcast_S_S100000x128 (constant S_ .f32 0x00000000#32))
        (broadcastInDim S700000x1 ![0] bcast_S700000_S700000x1_0 dst)
        (mulf (Host.gather gather_S100000x128_S700000x1_S700000x128_1_0_n_n_0_1_1128 p
                (broadcastInDim S700000x1 ![0] bcast_S700000_S700000x1_0 (wrapIdx src)))
              (broadcastInDim S700000x128 ![0, 1] bcast_S700000x1_S700000x128_0_1
                (broadcastInDim S700000x1 ![0] bcast_S700000_S700000x1_0 nrm))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer, on projected features [N, 256]. -/
def layer256 (p : FVec F S100000x256 .f32) (src dst : IVec S700000 32) (nrm : FVec F S700000 .f32) (b : FVec F S256 .f32) :
    FVec F S100000x256 .f32 :=
  maximumf
    (addf
      (Host.scatterAdd scatter_S100000x256_S700000x1_S700000x256_1_0_0_1
        (broadcastInDim S100000x256 ![] bcast_S_S100000x256 (constant S_ .f32 0x00000000#32))
        (broadcastInDim S700000x1 ![0] bcast_S700000_S700000x1_0 dst)
        (mulf (Host.gather gather_S100000x256_S700000x1_S700000x256_1_0_n_n_0_1_1256 p
                (broadcastInDim S700000x1 ![0] bcast_S700000_S700000x1_0 (wrapIdx src)))
              (broadcastInDim S700000x256 ![0, 1] bcast_S700000x1_S700000x256_0_1
                (broadcastInDim S700000x1 ![0] bcast_S700000_S700000x1_0 nrm))))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

end Cert.KernelIdeal.Glue

end
-- ==== Proof.Boundary.lean ====
/-
  The kernel's program between its regions: what each host stretch leaves, as the shared layer functions of what it
  was entered with.

  @main is a chain of boundaries: host operations are applied to the buffers' contents, and a region replaces its
  result array by what its write-backs leave and keeps every other buffer. Reading the chain from the launch memory:
  the edge endpoints and the edge weights are computed once, before the first region, and are not written again;
  after the first region one layer function gives the hidden features; after the second region the other layer
  function gives the pooled region's operand; the last operation reshapes the pooled [1, 256] row to a vector.
-/
import proofs.«167610_j85899345920324_1_alg».proof.Proof.Gen.KernelIdeal.Frame
import proofs.«167610_j85899345920324_1_alg».proof.Proof.Glue
import Idealize.ShloMosaic.Lib.StableHlo.Run

set_option maxRecDepth 16384

noncomputable section

namespace Cert.KernelIdeal.Boundary

open Cert.KernelIdeal Cert.KernelIdeal.Gen Cert.KernelIdeal.Glue
open Idealize.ShloMosaic Idealize.ShloMosaic.TcCoe Idealize.SL.Sem Idealize.ShloMosaic.StableHlo

variable {F : FTy → Type} [FloatOps F] [Named F]
variable (m : (ℓ : Loc nD τ sig) → Buf (Elt F) ℓ) (ρ : Dev nD → PrngReg)

/-! ## Before the first region: the edge endpoints, the edge weights, and the arguments as launched -/

theorem W3_src (c : Dev nD) : W3 m ρ c (Proc.devRef .tc main_v5) = srcIdx (m ((c : Thread nD τ).loc main_arg1)) := by
  show after hostOps0_2 (after hostOps0_1 (after hostOps0 (W0 m ρ c))) (Proc.devRef .tc main_v5) = _
  after_results_simp <;> rfl

theorem W3_dst (c : Dev nD) : W3 m ρ c (Proc.devRef .tc main_v6) = dstIdx (m ((c : Thread nD τ).loc main_arg1)) := by
  show after hostOps0_2 (after hostOps0_1 (after hostOps0 (W0 m ρ c))) (Proc.devRef .tc main_v6) = _
  after_results_simp <;> rfl

theorem W3_norm (c : Dev nD) : W3 m ρ c (Proc.devRef .tc main_v29) = edgeNorm (srcIdx (m ((c : Thread nD τ).loc main_arg1))) (dstIdx (m ((c : Thread nD τ).loc main_arg1))) := by
  show after hostOps0_2 (after hostOps0_1 (after hostOps0 (W0 m ρ c))) (Proc.devRef .tc main_v29) = _
  after_results_simp <;> rfl

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp <;> rfl

theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results_simp <;> rfl

theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp <;> rfl

theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp <;> rfl

theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp <;> rfl

/-! ## After the first region -/

/-- The first region's result array is what its write-backs leave. -/
theorem W4_proj (c : Dev nD) : W4 m ρ c (Proc.devRef .tc main_v30) = (dat0 (V3 m ρ) c).arrAt 2 cfg0.N := W4_arr m ρ c 2

/-- A buffer that is none of the first region's three arrays is kept. -/
theorem W4_keep (c : Dev nD) (b : Ref sig .tc) (hb : ∀ w, Pipeline.arrRef spec0 w ≠ b) :
    W4 m ρ c (Proc.devRef .tc b) = W3 m ρ c (Proc.devRef .tc b) := W4_of_ne m ρ c b hb

/-- The hidden features: the first layer of the first region's result. -/
theorem W6_hidden (c : Dev nD) : W6 m ρ c (Proc.devRef .tc main_v47)
    = layer128 (W4 m ρ c (Proc.devRef .tc main_v30)) (W4 m ρ c (Proc.devRef .tc main_v5)) (W4 m ρ c (Proc.devRef .tc main_v6))
        (W4 m ρ c (Proc.devRef .tc main_v29)) (W4 m ρ c (Proc.devRef .tc main_arg3)) := by
  show after hostOps1_1 (after hostOps1 (W4 m ρ c)) (Proc.devRef .tc main_v47) = _
  after_results_simp <;> rfl

theorem W6_keep_main_v5 (c : Dev nD) : W6 m ρ c (Proc.devRef .tc main_v5) = W4 m ρ c (Proc.devRef .tc main_v5) := by
  show after hostOps1_1 (after hostOps1 (W4 m ρ c)) (Proc.devRef .tc main_v5) = _
  after_results_simp <;> rfl

theorem W6_keep_main_v6 (c : Dev nD) : W6 m ρ c (Proc.devRef .tc main_v6) = W4 m ρ c (Proc.devRef .tc main_v6) := by
  show after hostOps1_1 (after hostOps1 (W4 m ρ c)) (Proc.devRef .tc main_v6) = _
  after_results_simp <;> rfl

theorem W6_keep_main_v29 (c : Dev nD) : W6 m ρ c (Proc.devRef .tc main_v29) = W4 m ρ c (Proc.devRef .tc main_v29) := by
  show after hostOps1_1 (after hostOps1 (W4 m ρ c)) (Proc.devRef .tc main_v29) = _
  after_results_simp <;> rfl

theorem W6_keep_main_arg4 (c : Dev nD) : W6 m ρ c (Proc.devRef .tc main_arg4) = W4 m ρ c (Proc.devRef .tc main_arg4) := by
  show after hostOps1_1 (after hostOps1 (W4 m ρ c)) (Proc.devRef .tc main_arg4) = _
  after_results_simp <;> rfl

theorem W6_keep_main_arg5 (c : Dev nD) : W6 m ρ c (Proc.devRef .tc main_arg5) = W4 m ρ c (Proc.devRef .tc main_arg5) := by
  show after hostOps1_1 (after hostOps1 (W4 m ρ c)) (Proc.devRef .tc main_arg5) = _
  after_results_simp <;> rfl

/-! ## After the second region -/

theorem W7_proj (c : Dev nD) : W7 m ρ c (Proc.devRef .tc main_v48) = (dat1 (V6 m ρ) c).arrAt 2 cfg1.N := W7_arr m ρ c 2

theorem W7_keep (c : Dev nD) (b : Ref sig .tc) (hb : ∀ w, Pipeline.arrRef spec1 w ≠ b) :
    W7 m ρ c (Proc.devRef .tc b) = W6 m ρ c (Proc.devRef .tc b) := W7_of_ne m ρ c b hb

/-- The pooled region's operand: the second layer of the second region's result. -/
theorem W9_hidden (c : Dev nD) : W9 m ρ c (Proc.devRef .tc main_v65)
    = layer256 (W7 m ρ c (Proc.devRef .tc main_v48)) (W7 m ρ c (Proc.devRef .tc main_v5)) (W7 m ρ c (Proc.devRef .tc main_v6))
        (W7 m ρ c (Proc.devRef .tc main_v29)) (W7 m ρ c (Proc.devRef .tc main_arg5)) := by
  show after hostOps2_1 (after hostOps2 (W7 m ρ c)) (Proc.devRef .tc main_v65) = _
  after_results_simp <;> rfl

/-! ## After the third region -/

theorem W10_pool (c : Dev nD) : W10 m ρ c (Proc.devRef .tc main_v66) = (dat2 (V9 m ρ) c).arrAt 1 cfg2.N := W10_arr m ρ c 1

/-- The result: the pooled row as a vector. -/
theorem W11_result (c : Dev nD) : W11 m ρ c (Proc.devRef .tc main_v67)
    = shapeCast S256 (W10 m ρ c (Proc.devRef .tc main_v66)) shapeCasts_S1x256_S256 := by
  show after hostOps3 (W10 m ρ c) (Proc.devRef .tc main_v67) = _
  after_results_simp <;> rfl

end Cert.KernelIdeal.Boundary

end
-- ==== Proof.Spec.lean ====
/-
  The two whole-array functions the kernels compute, over the extended reals, index by index.

  `rowsTimes x w` is the matrix product: entry (r, j) is the sum over k of x (r, k) * w (k, j). A row of the product
  depends on the same row of x only, which is why a product computed one block of rows at a time is the whole product.
  `colMean h` is the mean of every column of a 100000-row array, written as the column's sum times 1/100000.
-/
import Idealize.ShloMosaic.PureOps.Ideal
import Idealize.ShloMosaic.Lib.ValueIdx

noncomputable section

namespace Cert.Spec

open Idealize.ShloMosaic Idealize.ShloMosaic.ValueIdx

/-- The product of an [M, K] array by a [K, N] array. -/
def rowsTimes (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The sum of column `j` of a 100000-row array. -/
def colSum (N : ℕ) (h : (⟨2, ![100000, N]⟩ : Shape).Idx → EReal) (j : Fin N) : EReal :=
  ∑ r : Fin 100000, h (ix2 r j)

/-- The mean of every column of a 100000-row array, as a [1, N] row. -/
def colMeanRow (N : ℕ) (h : (⟨2, ![100000, N]⟩ : Shape).Idx → EReal) : (⟨2, ![1, N]⟩ : Shape).Idx → EReal :=
  fun i => colSum N h (i 1) * ((1 / 100000 : ℝ) : EReal)

/-- The same as a vector [N]. -/
def colMean (N : ℕ) (h : (⟨2, ![100000, N]⟩ : Shape).Idx → EReal) : (⟨1, ![N]⟩ : Shape).Idx → EReal :=
  fun i => colSum N h (i 0) * ((1 / 100000 : ℝ) : EReal)

end Cert.Spec

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.Region0.lean ====
/-
  Region 0 of the kernel's program: a product computed one block of 5000 rows at a time.

  At grid point t the body multiplies rows 5000 t … 5000 t + 4999 of the left operand (its block t) by the whole right
  operand, into a zero accumulator, and the block it writes back is block t of the result array. A row of a matrix
  product depends only on the same row of the left operand, so what point t writes is block t of the ONE product of
  the whole arrays; the twenty blocks tile the result array (row r lies in block r / 5000), so the array ends holding
  that product. The operands are narrowed to bf16 first, which changes nothing over the extended reals.
-/
import proofs.«167610_j85899345920324_1_alg».proof.Proof.Gen.KernelIdeal.Frame
import proofs.«167610_j85899345920324_1_alg».proof.Proof.Spec
import proofs.«167610_j85899345920324_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value, at an entry: the sum over k of (row of the left block) * (column of the right block). -/
theorem pay_apply (x0 : FVec Ideal S5000x128 .f32) (x1 : FVec Ideal S128x128 .f32) (y : S5000x128.Idx) :
    k0_pay1 (F := Ideal) x0 x1 y = ∑ k : Fin 128, x0 (ix2 (y 0) k) * x1 (ix2 k (y 1)) := by
  unfold k0_pay1
  exact Cert.Lib.PlainDot.matmul_zero_apply 5000 128 128 none x0 x1 y

/-- Equal positions give equal products of entries (stated over arrays of extended reals). -/
theorem mul_entry (X : S100000x128.Idx → EReal) (W : S128x128.Idx → EReal) (a a' : S100000x128.Idx) (b b' : S128x128.Idx)
    (ha : a = a') (hb : b = b') : X a * W b = X a' * W b' := by rw [ha, hb]

/-- Where the three windows' blocks sit at grid point t: the left operand's and the result's at row block t, the right
    operand's always the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole operands. -/
theorem flushed_eq (c : Dev nD) (t : Fin cfg0.N) :
    (dat0 V c).flushed 2 t
      = ((cfg0.win 2).blk t).view.read (Elt Ideal) (rowsTimes 100000 128 128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext y
  show k0_pay1 (F := Ideal) (iblk0 V c 0 t) (iblk0 V c 1 t) y
    = rowsTimes 100000 128 128 (V c main_arg0) (V c main_arg2) (((cfg0.win 2).blk t).view.emb y)
  refine (pay_apply (iblk0 V c 0 t) (iblk0 V c 1 t) y).trans ?_
  unfold rowsTimes
  refine Finset.sum_congr rfl fun k _ => ?_
  have h0 : ((cfg0.win 0).blk t).view.emb (ix2 (y 0) k) = ix2 ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have h1 : ((cfg0.win 1).blk t).view.emb (ix2 k (y 1)) = ix2 k ((((cfg0.win 2).blk t).view.emb y) 1) := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  exact mul_entry (V c main_arg0) (V c main_arg2) _ _ _ _ h0 h1

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the result array is in the block of the point its row falls in. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; dsimp only; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The result array after the region: the product of the operands as the region found them. -/
theorem final (c : Dev nD) :
    (dat0 V c).arrAt 2 cfg0.N = rowsTimes 100000 128 128 (V c main_arg0) (V c main_arg2) :=
  (dat0 V c).arrAt_eq_of_cover 2 _ (fun t _ => flushed_eq V c t) cover

end Cert.KernelIdeal.Region0

end
-- ==== Proof.Region1.lean ====
/-
  Region 1 of the kernel's program: a product computed one block of 5000 rows at a time.

  At grid point t the body multiplies rows 5000 t … 5000 t + 4999 of the left operand (its block t) by the whole right
  operand, into a zero accumulator, and the block it writes back is block t of the result array. A row of a matrix
  product depends only on the same row of the left operand, so what point t writes is block t of the ONE product of
  the whole arrays; the twenty blocks tile the result array (row r lies in block r / 5000), so the array ends holding
  that product. The operands are narrowed to bf16 first, which changes nothing over the extended reals.
-/
import proofs.«167610_j85899345920324_1_alg».proof.Proof.Gen.KernelIdeal.Frame
import proofs.«167610_j85899345920324_1_alg».proof.Proof.Spec
import proofs.«167610_j85899345920324_1_alg».proof.Proof.LibPlainDot
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value, at an entry: the sum over k of (row of the left block) * (column of the right block). -/
theorem pay_apply (x0 : FVec Ideal S5000x128 .f32) (x1 : FVec Ideal S128x256 .f32) (y : S5000x256.Idx) :
    k1_pay1 (F := Ideal) x0 x1 y = ∑ k : Fin 128, x0 (ix2 (y 0) k) * x1 (ix2 k (y 1)) := by
  unfold k1_pay1
  rw [shapeCast_self]
  exact Cert.Lib.PlainDot.matmul_zero_apply 5000 128 256 none x0 x1 y

/-- Equal positions give equal products of entries (stated over arrays of extended reals). -/
theorem mul_entry (X : S100000x128.Idx → EReal) (W : S128x256.Idx → EReal) (a a' : S100000x128.Idx) (b b' : S128x256.Idx)
    (ha : a = a') (hb : b = b') : X a * W b = X a' * W b' := by rw [ha, hb]

/-- Where the three windows' blocks sit at grid point t: the left operand's and the result's at row block t, the right
    operand's always the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the whole operands. -/
theorem flushed_eq (c : Dev nD) (t : Fin cfg1.N) :
    (dat1 V c).flushed 2 t
      = ((cfg1.win 2).blk t).view.read (Elt Ideal) (rowsTimes 100000 128 256 (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x256) hz]
  obtain ⟨e0, e1, e2, e3, e4, e5⟩ := idx_facts t
  funext y
  show k1_pay1 (F := Ideal) (iblk1 V c 0 t) (iblk1 V c 1 t) y
    = rowsTimes 100000 128 256 (V c main_v47) (V c main_arg4) (((cfg1.win 2).blk t).view.emb y)
  refine (pay_apply (iblk1 V c 0 t) (iblk1 V c 1 t) y).trans ?_
  unfold rowsTimes
  refine Finset.sum_congr rfl fun k _ => ?_
  have h0 : ((cfg1.win 0).blk t).view.emb (ix2 (y 0) k) = ix2 ((((cfg1.win 2).blk t).view.emb y) 0) k := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * k.val = k.val; omega
  have h1 : ((cfg1.win 1).blk t).view.emb (ix2 k (y 1)) = ix2 k ((((cfg1.win 2).blk t).view.emb y) 1) := by
    funext a; apply Fin.ext
    match a with
    | ⟨0, _⟩ => show win1_1.index t (0 : Fin 2) * 128 + 1 * k.val = k.val; omega
    | ⟨1, _⟩ => show win1_1.index t (1 : Fin 2) * 256 + 1 * (y 1).val = win1_2.index t (1 : Fin 2) * 256 + 1 * (y 1).val; omega
  exact mul_entry (V c main_v47) (V c main_arg4) _ _ _ _ h0 h1

/-- An index of the result array is in point t's block iff each coordinate is in the block's range on its axis. -/
theorem mem_blk (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- Every index of the result array is in the block of the point its row falls in. -/
theorem cover (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 20 := N_1
  have ht : (i 0).val / 5000 < cfg1.N := by rw [hN]; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; dsimp only; omega
  | ⟨1, _⟩ =>
    show win1_2.index ⟨(i 0).val / 5000, ht⟩ (1 : Fin 2) * 256 ≤ (i 1).val ∧ (i 1).val < win1_2.index ⟨(i 0).val / 5000, ht⟩ (1 : Fin 2) * 256 + 256
    rw [e5]; omega

/-- The result array after the region: the product of the operands as the region found them. -/
theorem final (c : Dev nD) :
    (dat1 V c).arrAt 2 cfg1.N = rowsTimes 100000 128 256 (V c main_v47) (V c main_arg4) :=
  (dat1 V c).arrAt_eq_of_cover 2 _ (fun t _ => flushed_eq V c t) cover

end Cert.KernelIdeal.Region1

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.Region2.lean ====
/-
  Region 2 of the kernel's program: the mean over the 100000 rows, accumulated over twenty blocks of 5000 rows.

  The result block [1, 256] never moves, so it is carried from point to point and written back once, after the last
  point. Point 0 stores the zero row and adds block 0's column sums to it; points 1 … 18 add their block's column sums
  to what the point before left; point 19 adds its block's column sums and then scales the row by the named constant
  1/100000. So after point n < 19 the carried row holds, in column j, the sum of the first 5000 (n + 1) entries of
  column j of the operand (a running sum over an initial segment of the rows, extended one block at a time), and the
  row written back is the whole column's sum times 1/100000. Sums here are over a commutative monoid: nothing about
  the entries being finite is used.
-/
import proofs.«167610_j85899345920324_1_alg».proof.Proof.Gen.KernelIdeal.Frame
import proofs.«167610_j85899345920324_1_alg».proof.Proof.Spec
import proofs.«167610_j85899345920324_1_alg».proof.Proof.LibColumnReads
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Idealize.ShloMosaic.PureOps.IdealRules

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem Idealize.ShloMosaic.Tactic
open Idealize.ShloMosaic.Pipeline (Dat)

theorem hz : (![0, 0] : Fin 2 → Nat) = fun _ => 0 := funext fun a => by fin_cases a <;> rfl

/-! ## What each of the three control cases leaves in the carried row -/

section Cases

variable {F : FTy → Type} [FloatOps F] [Named F]

/-- Point 0: the zero row is stored, read back, and block 0's column sums are added to it. -/
theorem out_A (c : Dev nD) (i : grid2.Coords) (a1 : Memref sig .tc .vmem S5000x256 .f32) (h1 : a1.IsWhole)
    (a2 : Memref sig .tc .vmem S1x256 .f32) (h2 : a2.IsWhole) (hc0 : cond2_0 i) (hc1 : ¬cond2_1 i) (x : Vec F S5000x256 .f32) :
    out2_A_1 c i a1 h1 a2 h2 hc0 hc1 x = k2_pay2 (k2_pay1 (F := F)) x := by
  unfold out2_A_1
  rw [View.read_writes_eq_canon _ _ _ (cover2_A_1 c i a1 h1 a2 h2 hc0 hc1 x)]
  unfold kernelRun2_A
  dsimp only
  sl_unfold_words
  rw [View.canon_cons_unit_zero (S := S1x256) hz, View.readCov_unit_zero (S := S1x256) _ hz]
  simp only [View.readAt_eq_ld, h1.read_unread, View.ld_unit_zero (S := S5000x256) hz]

/-- Points 1 … 18: the block's column sums are added to the row the point before left. -/
theorem out_B (c : Dev nD) (i : grid2.Coords) (a1 : Memref sig .tc .vmem S5000x256 .f32) (h1 : a1.IsWhole)
    (a2 : Memref sig .tc .vmem S1x256 .f32) (h2 : a2.IsWhole) (hc0 : ¬cond2_0 i) (hc1 : ¬cond2_1 i) (x : Vec F S5000x256 .f32)
    (xo : Vec F S1x256 .f32) : out2_B_1 c i a1 h1 a2 h2 hc0 hc1 x xo = k2_pay2 xo x := by
  unfold out2_B_1
  rw [View.read_writes_eq_canon _ _ _ (cover2_B_1 c i a1 h1 a2 h2 hc0 hc1 x xo)]
  unfold kernelRun2_B
  dsimp only
  sl_unfold_words
  rw [View.canon_unit_zero hz]
  simp only [View.readAt_eq_ld, h1.read_unread, h2.read_unread, View.ld_unit_zero (S := S5000x256) hz, View.ld_unit_zero (S := S1x256) hz]

/-- Point 19: the block's column sums are added, the row is read back and scaled. -/
theorem out_C (c : Dev nD) (i : grid2.Coords) (a1 : Memref sig .tc .vmem S5000x256 .f32) (h1 : a1.IsWhole)
    (a2 : Memref sig .tc .vmem S1x256 .f32) (h2 : a2.IsWhole) (hc0 : ¬cond2_0 i) (hc1 : cond2_1 i) (x : Vec F S5000x256 .f32)
    (xo : Vec F S1x256 .f32) : out2_C_1 c i a1 h1 a2 h2 hc0 hc1 x xo = k2_pay3 (k2_pay2 xo x) := by
  unfold out2_C_1
  rw [View.read_writes_eq_canon _ _ _ (cover2_C_1 c i a1 h1 a2 h2 hc0 hc1 x xo)]
  unfold kernelRun2_C
  dsimp only
  sl_unfold_words
  rw [View.canon_cons_unit_zero (S := S1x256) hz, View.readCov_unit_zero (S := S1x256) _ hz]
  simp only [View.readAt_eq_ld, h1.read_unread, h2.read_unread, View.ld_unit_zero (S := S5000x256) hz, View.ld_unit_zero (S := S1x256) hz]

variable (V : (c : Dev nD) → (b : Ref sig .tc) → Buf (Elt F) ((c : Thread nD τ).loc b))

/-- The carried row after point n, before any scaling: the zero row with the column sums of blocks 0 … n added in
    point order. -/
def acc (c : Dev nD) : (n : ℕ) → n < cfg2.N → Vec F S1x256 .f32
  | 0, h => k2_pay2 (k2_pay1 (F := F)) (iblk2 V c 0 ⟨0, h⟩)
  | n + 1, h => k2_pay2 (acc c n (Nat.lt_of_succ_lt h)) (iblk2 V c 0 ⟨n + 1, h⟩)

/-- Before the last point the carried row IS that running row: by induction on the point. -/
theorem outsAt_eq (c : Dev nD) : ∀ (n : ℕ) (h : n < cfg2.N), n < 19 → outsAt2 V c n h = acc V c n h
  | 0, h, _ => (outsAt2_A V c ⟨0, h⟩ rfl (by show ¬(0 : ℕ) % 20 = 19; decide)).trans (out_A ..)
  | n + 1, h, h19 => by
    have hB0 : ¬(⟨n + 1, h⟩ : Fin cfg2.N).val % 20 = 0 := by dsimp only; omega
    have hB1 : ¬(⟨n + 1, h⟩ : Fin cfg2.N).val % 20 = 19 := by dsimp only; omega
    rw [outsAt2_B V c ⟨n + 1, h⟩ hB0 hB1, out_B]
    show k2_pay2 (outsAt2 V c n _) _ = k2_pay2 (acc V c n _) _
    rw [outsAt_eq c n _ (by omega)]

/-- After the last point it is the running row over all twenty blocks, scaled. -/
theorem outsAt_last (c : Dev nD) (h : 19 < cfg2.N) : outsAt2 V c 19 h = k2_pay3 (acc V c 19 h) := by
  rw [outsAt2_C V c ⟨19, h⟩ (by show ¬(19 : ℕ) % 20 = 0; decide) rfl, out_C]
  show k2_pay3 (k2_pay2 (outsAt2 V c 18 _) _) = k2_pay3 (k2_pay2 (acc V c 18 _) _)
  rw [outsAt_eq V c 18 _ (by decide)]

end Cases

/-! ## The three stored values over the extended reals, at an entry -/

/-- The reset row is zero. -/
theorem pay1_apply (i : S1x256.Idx) : k2_pay1 (F := Ideal) i = 0 := by
  unfold k2_pay1
  show Ideal.ofBits .f32 0x00000000#32 = 0
  exact Ideal.ofBits_zero_f32

/-- The accumulation: the carried entry plus the sum of the block's column. -/
theorem pay2_apply (xo : FVec Ideal S1x256 .f32) (x : FVec Ideal S5000x256 .f32) (u : Fin 1) (j : Fin 256) :
    k2_pay2 (F := Ideal) xo x (ix2 u j) = xo (ix2 u j) + ∑ q : Fin 5000, x (ix2 q j) := by
  unfold k2_pay2
  simp only [shapeCast_self]
  show xo (ix2 u j) + shapeCast S1x256 (multiReduction (F := Ideal) .add [0] S256 x 0x00000000#32 reduces_S5000x256_S256 (.inl rfl) rfl)
    shapeCasts_S256_S1x256 (ix2 u j) = _
  refine congrArg (xo (ix2 u j) + ·) ?_
  refine (shapeCast_a_1a_apply _ shapeCasts_S256_S1x256 u j).trans ?_
  exact Cert.LibColumnReads.colSum_apply x _ reduces_S5000x256_S256 _ _ j

/-- The named constant is 1/100000 over the extended reals, by the certificate's table. -/
theorem inv_n : Named.named (F := Ideal) κ "inv_100000" (φ := .f32) 0x3727C5AC#32 = ((1 / 100000 : ℝ) : EReal) :=
  IdealRules.named_const.ideal_named_scalar _ _ _ _ rfl

/-- The scaling: the entry times 1/100000. -/
theorem pay3_apply (v : FVec Ideal S1x256 .f32) (i : S1x256.Idx) :
    k2_pay3 (F := Ideal) v i = v i * ((1 / 100000 : ℝ) : EReal) := by
  unfold k2_pay3
  simp only [shapeCast_self]
  show v i * Named.named (F := Ideal) κ "inv_100000" (φ := .f32) 0x3727C5AC#32 = _
  rw [inv_n]

/-! ## The running row is a running sum down the operand's columns -/

variable (V : (c : Dev nD) → (b : Ref sig .tc) → Buf (Elt Ideal) ((c : Thread nD τ).loc b))

/-- Column j of an array of 100000 rows as a function of the row number (zero past the last row). -/
def colFn (H : S100000x256.Idx → EReal) (j : Fin 256) (r : ℕ) : EReal :=
  if h : r < 100000 then H (ix2 ⟨r, h⟩ j) else 0

/-- Where the operand's block sits at grid point t (row block t), and the result's (always the whole row). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- Entry (q, j) of the operand's block at point t is entry (5000 t + q, j) of the operand. -/
theorem blk_entry (c : Dev nD) (t : Fin cfg2.N) (q : Fin 5000) (j : Fin 256) :
    iblk2 V c 0 t (ix2 q j) = colFn (V c main_v65) j (5000 * t.val + q.val) := by
  have hN : cfg2.N = 20 := N_2
  have ht : t.val < 20 := lt_of_lt_of_eq t.isLt hN
  have hr : 5000 * t.val + q.val < 100000 := by have := q.isLt; omega
  obtain ⟨e0, e1, e2, e3⟩ := idx_facts t
  unfold colFn
  rw [dif_pos hr]
  show (V c main_v65 : S100000x256.Idx → EReal) (((cfg2.win 0).blk t).view.emb (ix2 q j)) = _
  refine congrArg (V c main_v65 : S100000x256.Idx → EReal) ?_
  funext a; apply Fin.ext
  match a with
  | ⟨0, _⟩ => show win2_0.index t (0 : Fin 2) * 5000 + 1 * q.val = 5000 * t.val + q.val; omega
  | ⟨1, _⟩ => show win2_0.index t (1 : Fin 2) * 256 + 1 * j.val = j.val; omega

/-- A sum over the 5000 rows of a block's column, its entries given as a function of the row number. -/
theorem sum_fin_range (x : FVec Ideal S5000x256 .f32) (j : Fin 256) (g : ℕ → EReal)
    (hx : ∀ q : Fin 5000, x (ix2 q j) = g q.val) : ∑ q : Fin 5000, x (ix2 q j) = ∑ q ∈ Finset.range 5000, g q :=
  (Finset.sum_congr rfl fun q _ => hx q).trans (Fin.sum_univ_eq_sum_range g 5000)

/-- One accumulation at point t: the carried entry plus the operand's column over rows 5000 t … 5000 t + 4999. -/
theorem step (c : Dev nD) (t : Fin cfg2.N) (u : Fin 1) (j : Fin 256) (xo : FVec Ideal S1x256 .f32) (s : EReal)
    (hxo : xo (ix2 u j) = s) :
    k2_pay2 (F := Ideal) xo (iblk2 V c 0 t) (ix2 u j)
      = s + ∑ q ∈ Finset.range 5000, colFn (V c main_v65) j (5000 * t.val + q) := by
  refine (pay2_apply _ _ u j).trans ?_
  rw [hxo]
  exact congrArg (s + ·) (sum_fin_range _ j _ (fun q => blk_entry V c t q j))

/-- After point n the carried row holds the sum of the first 5000 (n + 1) entries of each column. -/
theorem acc_apply (c : Dev nD) (u : Fin 1) (j : Fin 256) : ∀ (n : ℕ) (h : n < cfg2.N),
    acc V c n h (ix2 u j) = ∑ r ∈ Finset.range (5000 * (n + 1)), colFn (V c main_v65) j r
  | 0, h => (step V c ⟨0, h⟩ u j _ 0 (pay1_apply _)).trans (by
      show (0 : EReal) + ∑ q ∈ Finset.range 5000, colFn (V c main_v65) j (5000 * 0 + q)
        = ∑ r ∈ Finset.range 5000, colFn (V c main_v65) j r
      rw [zero_add]
      exact Finset.sum_congr rfl fun q _ => by rw [Nat.mul_zero, Nat.zero_add])
  | n + 1, h => (step V c ⟨n + 1, h⟩ u j _ _ (acc_apply c u j n (Nat.lt_of_succ_lt h))).trans (by
      show (∑ r ∈ Finset.range (5000 * (n + 1)), colFn (V c main_v65) j r)
          + ∑ q ∈ Finset.range 5000, colFn (V c main_v65) j (5000 * (n + 1) + q)
        = ∑ r ∈ Finset.range (5000 * (n + 1 + 1)), colFn (V c main_v65) j r
      rw [show 5000 * (n + 1 + 1) = 5000 * (n + 1) + 5000 from by omega, Finset.sum_range_add])

/-- The sum over the row numbers below 100000 is the column's sum. -/
theorem range_sum (H : S100000x256.Idx → EReal) (j : Fin 256) :
    ∑ r ∈ Finset.range 100000, colFn H j r = colSum 256 H j := by
  unfold colSum
  rw [Finset.sum_range]
  refine Finset.sum_congr rfl fun r _ => ?_
  unfold colFn
  rw [dif_pos r.isLt]

/-! ## The result array -/

/-- The one write-back, after the last point, writes the row of column means. -/
theorem flushed_eq (c : Dev nD) (t : Fin cfg2.N) (hf : (cfg2.win 1).flush t = true) :
    (dat2 V c).flushed 1 t = ((cfg2.win 1).blk t).view.read (Elt Ideal) (colMeanRow 256 (V c main_v65)) := by
  have hN : cfg2.N = 20 := N_2
  have h19 : t.val = 19 := by have := (flush2_1 t).mp hf; have := t.isLt; omega
  have hlt : 19 < cfg2.N := by rw [hN]; decide
  obtain rfl : t = ⟨19, hlt⟩ := Fin.ext h19
  obtain ⟨e0, e1, e2, e3⟩ := idx_facts ⟨19, hlt⟩
  show (cfg2.win 1).cut (grid2.coords ⟨19, hlt⟩) ((dat2 V c).after 1 ⟨19, hlt⟩) = _
  rw [after2_1]
  funext y
  show outsAt2 V c 19 hlt y = colMeanRow 256 (V c main_v65) (((cfg2.win 1).blk ⟨19, hlt⟩).view.emb y)
  have he : ((cfg2.win 1).blk ⟨19, hlt⟩).view.emb y = y := by
    funext a; apply Fin.ext
    match a with
    | ⟨0, _⟩ => show win2_1.index ⟨19, hlt⟩ (0 : Fin 2) * 1 + 1 * (y 0).val = (y 0).val; omega
    | ⟨1, _⟩ => show win2_1.index ⟨19, hlt⟩ (1 : Fin 2) * 256 + 1 * (y 1).val = (y 1).val; omega
  rw [he, outsAt_last]
  obtain ⟨u, j, rfl⟩ : ∃ (u : Fin 1) (j : Fin 256), y = ix2 u j := ⟨y 0, y 1, eq_ix2 y⟩
  refine (pay3_apply _ _).trans ?_
  rw [acc_apply V c u j 19 hlt]
  show (∑ r ∈ Finset.range 100000, colFn (V c main_v65) j r) * _ = colSum 256 (V c main_v65) j * _
  rw [range_sum]

/-- The result array after the region: the row of column means of the operand as the region found it. -/
theorem final (c : Dev nD) : (dat2 V c).arrAt 1 cfg2.N = colMeanRow 256 (V c main_v65) :=
  (dat2 V c).arrAt_eq_of_cover 1 _ (flushed_eq V c) fun i => by
    have hN : cfg2.N = 20 := N_2
    have hlt : 19 < cfg2.N := by rw [hN]; decide
    obtain ⟨e0, e1, e2, e3⟩ := idx_facts ⟨19, hlt⟩
    refine ⟨⟨19, hlt⟩, (flush2_1 _).mpr rfl, ?_⟩
    show i ∈ ((View.whole main_v66).slice (win2_1.rect ⟨19, hlt⟩)).set
    rw [View.set_slice_whole, Rect.mem_set_unit]
    have h0 : (i 0 : Nat) < 1 := (i 0).isLt
    have h1 : (i 1 : Nat) < 256 := (i 1).isLt
    intro a
    match a with
    | ⟨0, _⟩ => show win2_1.index ⟨19, hlt⟩ (0 : Fin 2) * 1 ≤ (i 0 : Nat) ∧ (i 0 : Nat) < win2_1.index ⟨19, hlt⟩ (0 : Fin 2) * 1 + 1; omega
    | ⟨1, _⟩ => show win2_1.index ⟨19, hlt⟩ (1 : Fin 2) * 256 ≤ (i 1 : Nat) ∧ (i 1 : Nat) < win2_1.index ⟨19, hlt⟩ (1 : Fin 2) * 256 + 256; omega

end Cert.KernelIdeal.Region2

end
-- ==== Proof.Closed.lean ====
/-
  The function both programs compute, over the extended reals.

  Two graph-convolution layers and a mean over the nodes: project the node features by W1, aggregate over the edges
  (with self loops and symmetric degree normalisation), add b1 and clamp at zero; project by W2, aggregate, add b2 and
  clamp; then take the mean of every column over the 100000 nodes.
-/
import proofs.«167610_j85899345920324_1_alg».proof.Proof.Glue
import proofs.«167610_j85899345920324_1_alg».proof.Proof.Spec

noncomputable section

namespace Cert.KernelIdeal.Closed

open Cert.KernelIdeal Cert.KernelIdeal.Glue Cert.Spec Idealize.ShloMosaic

/-- The network's output [256] as a function of the six arguments. -/
def network (x : FVec Ideal S100000x128 .f32) (e : IVec S2x600000 32) (w1 : FVec Ideal S128x128 .f32)
    (b1 : FVec Ideal S128 .f32) (w2 : FVec Ideal S128x256 .f32) (b2 : FVec Ideal S256 .f32) : FVec Ideal S256 .f32 :=
  colMean 256
    (layer256 (F := Ideal)
      (rowsTimes 100000 128 256
        (layer128 (F := Ideal) (rowsTimes 100000 128 128 x w1) (srcIdx e) (dstIdx e) (edgeNorm (srcIdx e) (dstIdx e)) b1)
        w2)
      (srcIdx e) (dstIdx e) (edgeNorm (srcIdx e) (dstIdx e)) b2)

end Cert.KernelIdeal.Closed

end
-- ==== Proof.KernelValue.lean ====
/-
  The idealized kernel's result as the network function of its arguments.

  The last boundary's contents at the result buffer are read back through the program: the reshape of the pooled row;
  the pooled row is the column means of the third region's operand; that operand is the second layer of the second
  region's product; its left operand is the first layer of the first region's product of the arguments. The edge
  endpoints and weights are those computed before the first region, which no later step writes.
-/
import proofs.«167610_j85899345920324_1_alg».proof.Proof.Boundary
import proofs.«167610_j85899345920324_1_alg».proof.Proof.Region0
import proofs.«167610_j85899345920324_1_alg».proof.Proof.Region1
import proofs.«167610_j85899345920324_1_alg».proof.Proof.Region2
import proofs.«167610_j85899345920324_1_alg».proof.Proof.Closed
import Idealize.ShloMosaic.Lib.ValueLayout

set_option maxRecDepth 16384

noncomputable section

namespace Cert.KernelIdeal.KernelValue

open Cert.KernelIdeal Cert.KernelIdeal.Gen Cert.KernelIdeal.Glue Cert.KernelIdeal.Boundary Cert.KernelIdeal.Closed Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edge sources, destinations and weights, unchanged from before the first region to the third. -/
theorem src4 (c : Dev nD) : W4 m ρ c (Proc.devRef .tc main_v5) = srcIdx (m ((c : Thread nD τ).loc main_arg1)) :=
  (W4_keep m ρ c main_v5 (by decide)).trans (W3_src m ρ c)
theorem dst4 (c : Dev nD) : W4 m ρ c (Proc.devRef .tc main_v6) = dstIdx (m ((c : Thread nD τ).loc main_arg1)) :=
  (W4_keep m ρ c main_v6 (by decide)).trans (W3_dst m ρ c)
theorem nrm4 (c : Dev nD) : W4 m ρ c (Proc.devRef .tc main_v29) = edgeNorm (F := Ideal) (srcIdx (m ((c : Thread nD τ).loc main_arg1))) (dstIdx (m ((c : Thread nD τ).loc main_arg1))) :=
  (W4_keep m ρ c main_v29 (by decide)).trans (W3_norm m ρ c)
theorem src7 (c : Dev nD) : W7 m ρ c (Proc.devRef .tc main_v5) = srcIdx (m ((c : Thread nD τ).loc main_arg1)) :=
  (W7_keep m ρ c main_v5 (by decide)).trans ((W6_keep_main_v5 m ρ c).trans (src4 m ρ c))
theorem dst7 (c : Dev nD) : W7 m ρ c (Proc.devRef .tc main_v6) = dstIdx (m ((c : Thread nD τ).loc main_arg1)) :=
  (W7_keep m ρ c main_v6 (by decide)).trans ((W6_keep_main_v6 m ρ c).trans (dst4 m ρ c))
theorem nrm7 (c : Dev nD) : W7 m ρ c (Proc.devRef .tc main_v29) = edgeNorm (F := Ideal) (srcIdx (m ((c : Thread nD τ).loc main_arg1))) (dstIdx (m ((c : Thread nD τ).loc main_arg1))) :=
  (W7_keep m ρ c main_v29 (by decide)).trans ((W6_keep_main_v29 m ρ c).trans (nrm4 m ρ c))

/-- The first region's product of the arguments. -/
theorem proj1 (c : Dev nD) : W4 m ρ c (Proc.devRef .tc main_v30) = rowsTimes 100000 128 128 (m ((c : Thread nD τ).loc main_arg0)) (m ((c : Thread nD τ).loc main_arg2)) :=
  (W4_proj m ρ c).trans ((Region0.final (V3 m ρ) c).trans
    (congrArg₂ (rowsTimes 100000 128 128) (W3_arg0 m ρ c) (W3_arg2 m ρ c)))

/-- The hidden features. -/
theorem hidden1 (c : Dev nD) : W6 m ρ c (Proc.devRef .tc main_v47)
    = layer128 (F := Ideal) (rowsTimes 100000 128 128 (m ((c : Thread nD τ).loc main_arg0)) (m ((c : Thread nD τ).loc main_arg2))) (srcIdx (m ((c : Thread nD τ).loc main_arg1))) (dstIdx (m ((c : Thread nD τ).loc main_arg1)))
        (edgeNorm (srcIdx (m ((c : Thread nD τ).loc main_arg1))) (dstIdx (m ((c : Thread nD τ).loc main_arg1)))) (m ((c : Thread nD τ).loc main_arg3)) := by
  rw [W6_hidden, proj1, src4, dst4, nrm4, W4_keep m ρ c main_arg3 (by decide), W3_arg3]

/-- The second region's product. -/
theorem proj2 (c : Dev nD) : W7 m ρ c (Proc.devRef .tc main_v48)
    = rowsTimes 100000 128 256
        (layer128 (F := Ideal) (rowsTimes 100000 128 128 (m ((c : Thread nD τ).loc main_arg0)) (m ((c : Thread nD τ).loc main_arg2))) (srcIdx (m ((c : Thread nD τ).loc main_arg1))) (dstIdx (m ((c : Thread nD τ).loc main_arg1)))
          (edgeNorm (srcIdx (m ((c : Thread nD τ).loc main_arg1))) (dstIdx (m ((c : Thread nD τ).loc main_arg1)))) (m ((c : Thread nD τ).loc main_arg3))) (m ((c : Thread nD τ).loc main_arg4)) :=
  (W7_proj m ρ c).trans ((Region1.final (V6 m ρ) c).trans
    (congrArg₂ (rowsTimes 100000 128 256) (hidden1 m ρ c)
      ((W6_keep_main_arg4 m ρ c).trans ((W4_keep m ρ c main_arg4 (by decide)).trans (W3_arg4 m ρ c)))))

/-- The third region's operand. -/
theorem hidden2 (c : Dev nD) : W9 m ρ c (Proc.devRef .tc main_v65)
    = layer256 (F := Ideal)
        (rowsTimes 100000 128 256
          (layer128 (F := Ideal) (rowsTimes 100000 128 128 (m ((c : Thread nD τ).loc main_arg0)) (m ((c : Thread nD τ).loc main_arg2))) (srcIdx (m ((c : Thread nD τ).loc main_arg1))) (dstIdx (m ((c : Thread nD τ).loc main_arg1)))
            (edgeNorm (srcIdx (m ((c : Thread nD τ).loc main_arg1))) (dstIdx (m ((c : Thread nD τ).loc main_arg1)))) (m ((c : Thread nD τ).loc main_arg3))) (m ((c : Thread nD τ).loc main_arg4)))
        (srcIdx (m ((c : Thread nD τ).loc main_arg1))) (dstIdx (m ((c : Thread nD τ).loc main_arg1))) (edgeNorm (srcIdx (m ((c : Thread nD τ).loc main_arg1))) (dstIdx (m ((c : Thread nD τ).loc main_arg1)))) (m ((c : Thread nD τ).loc main_arg5)) := by
  rw [W9_hidden, proj2, src7, dst7, nrm7, W7_keep m ρ c main_arg5 (by decide), W6_keep_main_arg5,
    W4_keep m ρ c main_arg5 (by decide), W3_arg5]

/-- A [1, 256] row of column means, cast to a vector, is the vector of column means. -/
theorem cast_colMeanRow (h : (⟨2, ![100000, 256]⟩ : Shape).Idx → EReal) :
    shapeCast S256 (colMeanRow 256 h) shapeCasts_S1x256_S256 = colMean 256 h := by
  funext i
  obtain ⟨j, rfl⟩ : ∃ j : Fin 256, i = ix1 j := ⟨i 0, eq_ix1 i⟩
  exact shapeCast_1a_a_apply _ shapeCasts_S1x256_S256 j

/-- THE KERNEL'S RESULT: the network function of the arguments as launched. -/
theorem result_eq (c : Dev nD) : W11 m ρ c (Proc.devRef .tc main_v67)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W11_result, W10_pool, Region2.final (V9 m ρ) c]
  show shapeCast S256 (colMeanRow 256 (W9 m ρ c (Proc.devRef .tc main_v65))) shapeCasts_S1x256_S256 = _
  rw [hidden2, cast_colMeanRow]
  rfl

end Cert.KernelIdeal.KernelValue

end
-- ==== Proof.RefValue.lean ====
/-
  The reference's result as the same network function of its arguments.

  The reference's composed term is, operation for operation, the shared layer functions applied to the host's two
  products; it computes the edge weights twice, by the same operations of the same edge list. Over the extended reals
  the host's product is the matrix product, its sum down the rows from zero is the column's sum, and its quotient by
  the literal 100000 is the product with 1/100000 on every extended real, infinite ones included.
-/
import proofs.«167610_j85899345920324_1_alg».proof.Proof.RefRunP
import proofs.«167610_j85899345920324_1_alg».proof.Proof.Closed
import proofs.«167610_j85899345920324_1_alg».proof.Proof.LibPlainDot
import proofs.«167610_j85899345920324_1_alg».proof.Proof.LibColumnReads
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.RunP Cert.Spec
open Idealize.ShloMosaic Idealize.ShloMosaic.TcCoe Idealize.ShloMosaic.ValueIdx Idealize.SL.Sem

section AnyValues

variable {F : FTy → Type} [FloatOps F]

set_option maxHeartbeats 4000000 in
/-- The reference's composed term, layer by layer. -/
theorem res_eq (m : (ℓ : Loc nD τ sig) → Buf (Elt F) ℓ) (c : Dev nD) :
    res_main_v94 m c
    = Host.divf (Host.reduceAdd
        (Cert.KernelIdeal.Glue.layer256
          (Host.dotGeneral dot_S100000x128_S128x256_S100000x256_1_0_0_1_n_n none
            (Cert.KernelIdeal.Glue.layer128
              (Host.dotGeneral dot_S100000x128_S128x128_S100000x128_1_0_0_1_n_n none (m ((c.tc : Thread nD τ).loc main_arg0)) (m ((c.tc : Thread nD τ).loc main_arg2)))
              (Cert.KernelIdeal.Glue.srcIdx (m ((c.tc : Thread nD τ).loc main_arg1))) (Cert.KernelIdeal.Glue.dstIdx (m ((c.tc : Thread nD τ).loc main_arg1)))
              (Cert.KernelIdeal.Glue.edgeNorm (Cert.KernelIdeal.Glue.srcIdx (m ((c.tc : Thread nD τ).loc main_arg1))) (Cert.KernelIdeal.Glue.dstIdx (m ((c.tc : Thread nD τ).loc main_arg1))))
              (m ((c.tc : Thread nD τ).loc main_arg3)))
            (m ((c.tc : Thread nD τ).loc main_arg4)))
          (Cert.KernelIdeal.Glue.srcIdx (m ((c.tc : Thread nD τ).loc main_arg1))) (Cert.KernelIdeal.Glue.dstIdx (m ((c.tc : Thread nD τ).loc main_arg1)))
          (Cert.KernelIdeal.Glue.edgeNorm (Cert.KernelIdeal.Glue.srcIdx (m ((c.tc : Thread nD τ).loc main_arg1))) (Cert.KernelIdeal.Glue.dstIdx (m ((c.tc : Thread nD τ).loc main_arg1))))
          (m ((c.tc : Thread nD τ).loc main_arg5)))
        (constant S_ .f32 0x00000000#32) reducesTo_S100000x256_S256_d0 h_S_)
      (broadcastInDim S256 ![] bcast_S_S256 (constant S_ .f32 0x47C35000#32)) := by
  unfold res_main_v94
  rfl

end AnyValues

/-- The literal 100000.0 is the real 100000. -/
theorem ofBits_100000 : Ideal.ofBits .f32 0x47C35000#32 = ((100000 : ℝ) : EReal) := by
  simp [Ideal.ofBits, Ideal.ieee, -EReal.coe_mul]; norm_num

/-- The host's [100000, 128] by [128, 128] product is the matrix product. -/
theorem dot128_eq (x : FVec Ideal S100000x128 .f32) (w : FVec Ideal S128x128 .f32) :
    Host.dotGeneral (F := Ideal) dot_S100000x128_S128x128_S100000x128_1_0_0_1_n_n none x w = rowsTimes 100000 128 128 x w :=
  funext fun i => Cert.Lib.PlainDot.dotGeneral_apply 100000 128 128 none _ x w i

/-- The host's [100000, 128] by [128, 256] product is the matrix product. -/
theorem dot256_eq (x : FVec Ideal S100000x128 .f32) (w : FVec Ideal S128x256 .f32) :
    Host.dotGeneral (F := Ideal) dot_S100000x128_S128x256_S100000x256_1_0_0_1_n_n none x w = rowsTimes 100000 128 256 x w :=
  funext fun i => Cert.Lib.PlainDot.dotGeneral_apply 100000 128 256 none _ x w i

/-- The host's mean: the sum down the rows from zero, divided by 100000, is the column's sum times 1/100000. -/
theorem mean_eq (h : FVec Ideal S100000x256 .f32) :
    Host.divf (Host.reduceAdd h (constant (F := Ideal) S_ .f32 0x00000000#32) reducesTo_S100000x256_S256_d0 h_S_)
      (broadcastInDim S256 ![] bcast_S_S256 (constant (F := Ideal) S_ .f32 0x47C35000#32)) = colMean 256 h := by
  funext i
  obtain ⟨j, rfl⟩ : ∃ j : Fin 256, i = ix1 j := ⟨i 0, eq_ix1 i⟩
  have hR : S100000x256.Reduces [0] S256 := by decide
  show Ideal.div (Ideal.hostReduceAdd reducesTo_S100000x256_S256_d0 h (Ideal.ofBits .f32 0x00000000#32) (ix1 j))
    (Ideal.ofBits .f32 0x47C35000#32) = _
  rw [Ideal.hostReduceAdd_single reducesTo_S100000x256_S256_d0 hR, Ideal.ofBits_zero_f32, zero_add, ofBits_100000,
    Ideal.div_coe (by norm_num : (100000 : ℝ) ≠ 0)]
  unfold colMean colSum
  exact congrArg (· * ((1 / 100000 : ℝ) : EReal))
    (Finset.sum_congr rfl fun k _ => congrArg h (Cert.LibColumnReads.lift_ix1 hR j k))

/-- THE REFERENCE'S RESULT: the network function of its arguments. -/
theorem result_eq (m : (ℓ : Loc nD τ sig) → Buf (Elt Ideal) ℓ) (c : Dev nD) :
    res_main_v94 m c
    = Cert.KernelIdeal.Closed.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res_eq, mean_eq, dot256_eq, dot128_eq]
  rfl

end Cert.ReferenceIdeal.RefValue

end
-- ==== Proof.lean ====
/-
  A two-layer graph convolution network with a mean over the nodes, computed by a program with three kernel regions,
  against its plain reference: the claim's five parts.

  The two programs differ in three places. The kernel computes each layer's dense projection x · W one block of 5000
  rows at a time (a row of a product depends on the same row of x only, so the blocks are the blocks of ONE product;
  narrowing the operands to bf16 first is the identity over the extended reals); it computes the edge weights once
  where the reference computes them once per layer (the same operations of the same edge list); and it takes the mean
  over the 100000 nodes as twenty partial column sums accumulated in order and then scaled by the constant named
  1/100000, where the reference sums down the whole column and divides by 100000. Addition of extended reals is
  commutative and associative, so the partial sums regroup to the whole sum, and dividing by the real 100000 is
  multiplying by 1/100000 on every extended real: no finiteness of the inputs is needed, and the precondition is not
  used. Everything between the projections and the mean is the same host computation on both sides and is compared as
  a whole, never opened.

  The frames of the two kernel programs are the generated ones; the reference's frame is its run with the result
  dropped; the one ledger entry is the named constant's value.
-/
import proofs.«167610_j85899345920324_1_alg».proof.Defs
import proofs.«167610_j85899345920324_1_alg».proof.Proof.Gen.Kernel
import proofs.«167610_j85899345920324_1_alg».proof.Proof.Gen.Kernel.Skeleton
import proofs.«167610_j85899345920324_1_alg».proof.Proof.Gen.Kernel.Launch
import proofs.«167610_j85899345920324_1_alg».proof.Proof.Gen.Kernel.Points
import proofs.«167610_j85899345920324_1_alg».proof.Proof.Gen.Kernel.Frame
import proofs.«167610_j85899345920324_1_alg».proof.Proof.Gen.KernelIdeal
import proofs.«167610_j85899345920324_1_alg».proof.Proof.Gen.KernelIdeal.Skeleton
import proofs.«167610_j85899345920324_1_alg».proof.Proof.Gen.KernelIdeal.Launch
import proofs.«167610_j85899345920324_1_alg».proof.Proof.Gen.KernelIdeal.Points
import proofs.«167610_j85899345920324_1_alg».proof.Proof.Gen.KernelIdeal.Frame
import proofs.«167610_j85899345920324_1_alg».proof.Proof.Gen.ReferenceIdeal
import proofs.«167610_j85899345920324_1_alg».proof.Proof.Gen.Pre_finite_inputs
import proofs.«167610_j85899345920324_1_alg».proof.Proof.RefRunP
import proofs.«167610_j85899345920324_1_alg».proof.Proof.RunValue
import proofs.«167610_j85899345920324_1_alg».proof.Proof.KernelValue
import proofs.«167610_j85899345920324_1_alg».proof.Proof.RefValue
import Idealize.ShloMosaic.PureOps.IdealRules
import Idealize.ShloMosaic.Adequacy
import Idealize.ShloMosaic.Init

noncomputable section

namespace Cert.Proof

open Idealize.ShloMosaic Idealize.SL.Sem

/-- The two kernel programs run and leave their arguments unchanged. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The one rewrite of the idealization: the literal 9.99999974e-6 is read as 1/100000, by the certificate's table. -/
theorem preserves : Cert.preserves_Kernel_KernelIdeal :=
  IdealRules.named_const.statement Cert.KernelIdeal.κ "inv_100000" .f32 0x3727C5AC#32 ((1 / 100000 : ℝ) : EReal) rfl

/-- Over the extended reals both programs end at the network function of arguments that agree. -/
theorem algebraic : Cert.algebraic_KernelIdeal_ReferenceIdeal := by
  intro m ρ m' ρ' _ hagree
  refine ⟨fun c => Cert.KernelIdeal.Closed.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
